-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x512 .f32) (main_arg1 : FVec F S512x256 .f32) (main_arg2 : FVec F S800000 .f32) (main_arg3 : IVec S800000 32) (main_arg4 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S5000x512 : Shape := ⟨2, ![5000, 512]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩

abbrev nBuf : Space → Nat
  | .hbm => 24
  | .vmem => 9
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x256, .bf16⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .bf16⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .bf16⟩
  | .local _ .vmem, ⟨4, _⟩ => ⟨S5000x256, .bf16⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S5000x256_S5000x256 : S5000x256.ShapeCasts S5000x256
  dot_S5000x512_S512x256_S5000x256_1_0_0_1_n_n_wf : DotDims.WF S5000x512 S512x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x256, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .f32⟩
  | .hbm, ⟨15, _⟩ => ⟨S800000x1, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The idealized kernel's run with its result kept.

  @main is three segments: the dense transform's region, a stretch of host operations, the activation's region. The
  buffer contents at the boundaries between them form a fold from the launch memory: `W0` at launch, `W1` after the
  first region (its output array at what its write-backs leave, everything else as before), `W2` after the host
  stretch, `W3` after the second region. The imported frame module defines these contents and each segment.
  The theorem here: every weakly fair execution of @main terminates, nothing faulting, with the result buffer at what
  the last boundary's contents `W3` hold there and every argument array as launched. What `W3` holds at the result
  buffer is computed in the value modules.
-/
import proofs.«100216_j17437567222234_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement below
set_option backward.isDefEq.respectTransparency.types false in
/-- Every weakly fair execution of @main terminates, nothing faulting; the result buffer ends at the last boundary's
    contents and the arguments end as launched. -/
theorem run_result : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.HostChain.lean ====
/-
  The host stretch between the two kernel regions, as one function, and the rectifier.

  Between the dense transform and the activation the program does, on the host: wrap a negative source index by adding
  the number of nodes; gather the rows of h the source indices name; multiply each gathered row by its edge's value
  (the value spread along the row); and add each product row into the row of a zero array that the edge's destination
  index names. Both programs apply this same chain to the same edge arrays, so it is carried here as ONE function
  `edgeSum` of h and the edge arrays and is never opened: the two sides are joined by the equality of the arrays h
  they feed it.
  The rectifier is the maximum of each entry with the value of the zero word. The dense transform h = x · w is the
  contraction of x's columns with w's rows.
-/
import proofs.«100216_j17437567222234_2_alg».proof.Proof.Gen.KernelIdeal
import Idealize.ShloMosaic.PureOps.Ideal
import Idealize.ShloMosaic.PureOps.Dims
import Idealize.ShloMosaic.Lib.ValueIdx

noncomputable section

namespace Cert.KernelIdeal.HostChain

open Idealize.ShloMosaic Cert.KernelIdeal Cert.KernelIdeal.Facts₀

/-- The dense transform of all the nodes at once: the contraction of x's columns with w's rows. -/
def dense (x : FVec Ideal ⟨2, ![50000, 512]⟩ .f32) (w : FVec Ideal ⟨2, ![512, 256]⟩ .f32) : FVec Ideal ⟨2, ![50000, 256]⟩ .f32 :=
  Host.dotGeneral (F := Ideal) (DotDims.plain 50000 512 256) none x w

/-- Source indices wrapped into range, rows of `h` gathered, each scaled by its edge value, and summed into the
    destination rows of a zero array. `h` arrives in the narrow float format and is widened after the gather, as the
    kernel's program spells it; at the ideal values both format changes are the identity. -/
def edgeSum (h : (⟨S50000x256, .bf16⟩ : BufTy).Contents (Elt Ideal)) (vals : (⟨S800000, .f32⟩ : BufTy).Contents (Elt Ideal))
    (src : (⟨S800000, .i32⟩ : BufTy).Contents (Elt Ideal)) (dst : (⟨S800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (F := Ideal)
      (extf (F := Ideal) .f32
        (Host.gather gather_S50000x256_S800000x1_S800000x256_1_0_n_n_0_1_1256 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        bitsLt_bf16_f32)
      (broadcastInDim S800000x256 ![0, 1] bcast_S800000x1_S800000x256_0_1
        (broadcastInDim S800000x1 ![0] bcast_S800000_S800000x1_0 vals)))

/-- The rectifier, entry by entry: the larger of the entry and the value of the zero word. -/
def relu (a : (⟨S50000x256, .f32⟩ : BufTy).Contents (Elt Ideal)) : (⟨S50000x256, .f32⟩ : BufTy).Contents (Elt Ideal) :=
  fun i => max (a i) (Scalar.ofBits (F := Ideal) .f32 0x00000000#32)

theorem relu_apply (a : (⟨S50000x256, .f32⟩ : BufTy).Contents (Elt Ideal)) (i : S50000x256.Idx) :
    relu a i = max (a i) (Scalar.ofBits (F := Ideal) .f32 0x00000000#32) := rfl

end Cert.KernelIdeal.HostChain

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«100216_j17437567222234_2_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.Region0.lean ====
/-
  The dense transform's region: its output array after the run is the whole dense transform.

  The grid has ten points; point t stages rows 5000·t … 5000·t + 4999 of x, all of w, and writes back rows
  5000·t … 5000·t + 4999 of the output. The body multiplies the block of x by w into a zero accumulator (both
  operands and the product pass through the narrow float format, which is the identity at the ideal values). Entry
  (p, q) of the block's product is the sum over k of x (5000·t + p, k) · w (k, q): a row of a product depends on the
  same row of the left operand only, so the block point t writes back is block t of the whole product x · w. The ten
  blocks tile the 50000 rows (row r lies in block r / 5000), so the array ends holding x · w.
  Stated at any contents `V` the region may be entered from.
-/
import proofs.«100216_j17437567222234_2_alg».proof.Proof.Gen.KernelIdeal.Frame
import proofs.«100216_j17437567222234_2_alg».proof.Proof.HostChain
import proofs.«100216_j17437567222234_2_alg».proof.Proof.LibRowBlocks
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostChain

variable (V : (c : Dev nD) → (b : Ref sig .tc) → Buf (Elt Ideal) ((c : Thread nD τ).loc b))

theorem offsets_zero : (![0, 0] : Fin 2 → Nat) = fun _ => 0 := funext fun a => by fin_cases a <;> rfl

/-- The block indices at point t: x's and the output's row block is t, every column block is 0, w's block is the
    whole of w. Decided over the ten points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at entry (p, q), when row p of the x block is row `row p` of x and the w block is w:
    entry (row p, q) of the whole product. -/
theorem stored_apply (x0 : Vec Ideal S5000x512 .f32) (x1 : Vec Ideal S512x256 .f32)
    (X : FVec Ideal ⟨2, ![50000, 512]⟩ .f32) (W : FVec Ideal ⟨2, ![512, 256]⟩ .f32) (row : Fin 5000 → Fin 50000)
    (hx : ∀ p k, x0 (ix2 p k) = X (ix2 (row p) k)) (hw : ∀ k q, x1 (ix2 k q) = W (ix2 k q)) (p : Fin 5000) (q : Fin 256) :
    k0_pay1 (F := Ideal) x0 x1 (ix2 p q) = dense X W (ix2 (row p) q) := by
  unfold k0_pay1 dense
  exact Cert.Lib.RowBlocks.matmul_rows_apply (ψ := .bf16) Gen.bitsLt_bf16_f32 x0 x1 X W row hx hw p q

/-- What point t writes back is block t of the whole product of the arrays the region finds. -/
theorem flushed_eq (c : Dev nD) (t : Fin cfg0.N) :
    (dat0 V c).flushed 2 t
      = ((cfg0.win 2).blk t).view.read (Elt Ideal) (dense (V c main_arg0) (V c main_arg1)) := by
  show (cfg0.win 2).cut (grid0.coords t) ((dat0 V c).after 2 t) = _
  rw [after0_2]
  unfold out0_2
  rw [View.canon_unit_zero offsets_zero]
  simp only [View.ld_unit_zero (S := S5000x512) offsets_zero, View.ld_unit_zero (S := S512x256) offsets_zero]
  obtain ⟨e0, e1, e2, e3, e4, e5⟩ := block_indices t
  have ht : t.val < 10 := t.isLt
  funext j
  obtain ⟨p, q, rfl⟩ : ∃ (p : Fin 5000) (q : Fin 256), j = ix2 p q := ⟨j 0, j 1, eq_ix2 j⟩
  have hp : p.val < 5000 := p.isLt
  have hemb : ((cfg0.win 2).blk t).view.emb (ix2 p q)
      = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  show k0_pay1 (F := Ideal) (iblk0 V c 0 t) (iblk0 V c 1 t) (ix2 p q)
    = dense (V c main_arg0) (V c main_arg1) (((cfg0.win 2).blk t).view.emb (ix2 p q))
  rw [hemb]
  refine stored_apply (iblk0 V c 0 t) (iblk0 V c 1 t) (V c main_arg0) (V c main_arg1)
    (fun p' => (⟨t.val * 5000 + p'.val, by have := p'.isLt; omega⟩ : Fin 50000)) ?_ ?_ p q
  · intro p' k
    have hp' : p'.val < 5000 := p'.isLt
    show V c main_arg0 (((cfg0.win 0).blk t).view.emb (ix2 p' k)) = V c main_arg0 (ix2 _ k)
    refine congrArg (V c main_arg0) ?_
    funext a; apply Fin.ext
    match a with
    | ⟨0, _⟩ => show win0_0.index t (0 : Fin 2) * 5000 + 1 * p'.val = t.val * 5000 + p'.val; omega
    | ⟨1, _⟩ => show win0_0.index t (1 : Fin 2) * 512 + 1 * k.val = k.val; omega
  · intro k q'
    show V c main_arg1 (((cfg0.win 1).blk t).view.emb (ix2 k q')) = V c main_arg1 (ix2 k q')
    refine congrArg (V c main_arg1) ?_
    funext a; apply Fin.ext
    match a with
    | ⟨0, _⟩ => show win0_1.index t (0 : Fin 2) * 512 + 1 * k.val = k.val; omega
    | ⟨1, _⟩ => show win0_1.index t (1 : Fin 2) * 256 + 1 * q'.val = q'.val; omega

/-- An index of the output array lies in point t's block iff each coordinate lies in the block's range on its axis. -/
theorem mem_block (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v0).slice (win0_2.rect t)).set ↔ _
  rw [View.set_slice_whole, Rect.mem_set_unit]
  exact Iff.rfl

/-- Every index of the output array lies in the block of the point its row names: row r in block r / 5000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 5000 < 10 := by omega
  obtain ⟨e0, e1, e2, e3, e4, e5⟩ := block_indices ⟨(i 0).val / 5000, hlt⟩
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 256 ≤ (i 1).val
      ∧ (i 1).val < win0_2.index ⟨(i 0).val / 5000, hlt⟩ (1 : Fin 2) * 256 + 256
    rw [e5]; omega

/-- The output array after the region: the whole dense transform of the arrays the region finds. -/
theorem final (c : Dev nD) : (dat0 V c).arrAt 2 cfg0.N = dense (V c main_arg0) (V c main_arg1) :=
  (dat0 V c).arrAt_eq_of_cover 2 _ (fun t _ => flushed_eq V c t) covered

end Cert.KernelIdeal.Region0

end
-- ==== Proof.Region1.lean ====
/-
  The activation's region: its output array after the run is the rectifier of its input array.

  The grid has ten points; point t stages rows 5000·t … 5000·t + 4999 of the input and writes back the same rows of
  the output. The body takes the larger of each entry and the value of the zero word, so what point t writes back is
  block t of the rectified input array. The ten blocks tile the 50000 rows (row r lies in block r / 5000), so the
  array ends holding the rectifier of the whole input.
  Stated at any contents `V` the region may be entered from.
-/
import proofs.«100216_j17437567222234_2_alg».proof.Proof.Gen.KernelIdeal.Frame
import proofs.«100216_j17437567222234_2_alg».proof.Proof.HostChain
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostChain

variable (V : (c : Dev nD) → (b : Ref sig .tc) → Buf (Elt Ideal) ((c : Thread nD τ).loc b))

theorem offsets_zero : (![0, 0] : Fin 2 → Nat) = fun _ => 0 := funext fun a => by fin_cases a <;> rfl

/-- The block indices at point t: the input's and the output's row block is t, the column block 0. Decided over the
    ten points. -/
theorem block_indices : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The body's stored value at an entry: the larger of the loaded entry and the value of the zero word. -/
theorem stored_apply (x0 : Vec Ideal S5000x256 .f32) (j : S5000x256.Idx) :
    k1_pay1 (F := Ideal) x0 j = max (x0 j) (Scalar.ofBits (F := Ideal) .f32 0x00000000#32) := by
  unfold k1_pay1
  show (maximumf (shapeCast S5000x256 x0 Gen.shapeCasts_S5000x256_S5000x256)
    (broadcast S5000x256 (Scalar.ofBits (F := Ideal) .f32 0x00000000#32))) j = _
  rw [maximumf_apply, shapeCast_self, broadcast_apply]

/-- What point t writes back is block t of the rectified input array as the region finds it. -/
theorem flushed_eq (c : Dev nD) (t : Fin cfg1.N) :
    (dat1 V c).flushed 1 t = ((cfg1.win 1).blk t).view.read (Elt Ideal) (relu (V c main_v14)) := by
  show (cfg1.win 1).cut (grid1.coords t) ((dat1 V c).after 1 t) = _
  rw [after1_1]
  unfold out1_1
  rw [View.canon_unit_zero offsets_zero]
  simp only [View.ld_unit_zero (S := S5000x256) offsets_zero]
  obtain ⟨e0, e1, e2, e3⟩ := block_indices t
  funext j
  show k1_pay1 (F := Ideal) (iblk1 V c 0 t) j = relu (V c main_v14) (((cfg1.win 1).blk t).view.emb j)
  rw [stored_apply, relu_apply]
  refine congrArg (fun z => max z (Scalar.ofBits (F := Ideal) .f32 0x00000000#32)) ?_
  show V c main_v14 (((cfg1.win 0).blk t).view.emb j) = V c main_v14 (((cfg1.win 1).blk t).view.emb j)
  refine congrArg (V c main_v14) ?_
  funext a; apply Fin.ext
  match a with
  | ⟨0, _⟩ => show win1_0.index t (0 : Fin 2) * 5000 + 1 * (j 0).val = win1_1.index t (0 : Fin 2) * 5000 + 1 * (j 0).val; omega
  | ⟨1, _⟩ => show win1_0.index t (1 : Fin 2) * 256 + 1 * (j 1).val = win1_1.index t (1 : Fin 2) * 256 + 1 * (j 1).val; omega

/-- An index of the output array lies in point t's block iff each coordinate lies in the block's range on its axis. -/
theorem mem_block (t : Fin cfg1.N) (i : S50000x256.Idx) :
    i ∈ ((cfg1.win 1).blk t).view.set ↔ ∀ a : Fin 2, win1_1.index t a * S5000x256.size a ≤ (i a).val
      ∧ (i a).val < win1_1.index t a * S5000x256.size a + S5000x256.size a := by
  show i ∈ ((View.whole main_v15).slice (win1_1.rect t)).set ↔ _
  rw [View.set_slice_whole, Rect.mem_set_unit]
  exact Iff.rfl

/-- Every index of the output array lies in the block of the point its row names: row r in block r / 5000. -/
theorem covered (i : S50000x256.Idx) :
    ∃ t : Fin cfg1.N, (cfg1.win 1).flush t = true ∧ i ∈ ((cfg1.win 1).blk t).view.set := by
  have hi0 : (i 0).val < 50000 := (i 0).isLt
  have hi1 : (i 1).val < 256 := (i 1).isLt
  have hlt : (i 0).val / 5000 < 10 := by omega
  obtain ⟨e0, e1, e2, e3⟩ := block_indices ⟨(i 0).val / 5000, hlt⟩
  refine ⟨⟨(i 0).val / 5000, hlt⟩, flush1_1 _, ?_⟩
  rw [mem_block]
  intro a
  match a with
  | ⟨0, _⟩ =>
    show win1_1.index ⟨(i 0).val / 5000, hlt⟩ (0 : Fin 2) * 5000 ≤ (i 0).val
      ∧ (i 0).val < win1_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win1_1.index ⟨(i 0).val / 5000, hlt⟩ (1 : Fin 2) * 256 ≤ (i 1).val
      ∧ (i 1).val < win1_1.index ⟨(i 0).val / 5000, hlt⟩ (1 : Fin 2) * 256 + 256
    rw [e3]; omega

/-- The output array after the region: the rectifier of the input array the region finds. -/
theorem final (c : Dev nD) : (dat1 V c).arrAt 1 cfg1.N = relu (V c main_v14) :=
  (dat1 V c).arrAt_eq_of_cover 1 _ (fun t _ => flushed_eq V c t) covered

end Cert.KernelIdeal.Region1

end
-- ==== Proof.KernelValue.lean ====
/-
  What the idealized kernel's result buffer holds after the run.

  Walking the boundary contents back from the end: after the activation's region the result array is the rectifier of
  that region's input array (the region's ten row blocks tile it); that input is what the host stretch wrote, the
  edge sum of the array the dense transform's region left and of the three edge arguments, which no region and no
  host operation writes, so they are read as launched; and the array the first region left is the whole dense
  transform of x and w as launched (its ten row blocks tile it). So the result is
  relu (edgeSum (dense x w) vals src dst) of the launch contents.
-/
import proofs.«100216_j17437567222234_2_alg».proof.Proof.Gen.KernelIdeal.Frame
import proofs.«100216_j17437567222234_2_alg».proof.Proof.HostChain
import proofs.«100216_j17437567222234_2_alg».proof.Proof.Region0
import proofs.«100216_j17437567222234_2_alg».proof.Proof.Region1
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.HostChain

/-- The host stretch between the regions, from any contents: the buffer it writes last holds the edge sum of the
    first region's output buffer and the three edge arguments as the stretch finds them. -/
theorem host_stretch (Wv : Valuation τ sig (Elt Ideal)) :
    StableHlo.after (hostOps1 (F := Ideal)) Wv (Proc.devRef .tc main_v14)
      = edgeSum (Wv (Proc.devRef .tc main_v0)) (Wv (Proc.devRef .tc main_arg2))
          (Wv (Proc.devRef .tc main_arg3)) (Wv (Proc.devRef .tc main_arg4)) := by
  after_results
  rfl

variable (m : (ℓ : Loc nD τ sig) → Buf (Elt Ideal) ℓ) (ρ : Dev nD → PrngReg)

/-- The first region leaves the whole dense transform of x and w as launched. -/
theorem dense_left (c : Dev nD) :
    W1 m ρ c (Proc.devRef .tc main_v0)
      = dense (m ((c.tc : Thread nD τ).loc main_arg0)) (m ((c.tc : Thread nD τ).loc main_arg1)) :=
  (W1_arr m ρ c 2).trans (Region0.final (V0 m ρ) c)

/-- The result buffer after the run, of the launch contents. -/
theorem result (c : Dev nD) :
    W3 m ρ c (Proc.devRef .tc main_v15)
      = relu (edgeSum (dense (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4))) := by
  refine ((W3_arr m ρ c 1).trans (Region1.final (V2 m ρ) c)).trans ?_
  refine congrArg relu ?_
  show StableHlo.after (hostOps1 (F := Ideal)) (W1 m ρ c) (Proc.devRef .tc main_v14) = _
  rw [host_stretch, dense_left, W1_of_ne m ρ c main_arg2 (by decide), W1_of_ne m ρ c main_arg3 (by decide),
    W1_of_ne m ρ c main_arg4 (by decide)]

end Cert.KernelIdeal.Value

end
-- ==== Proof.RefValue.lean ====
/-
  The reference's result is the same function of the arguments as the kernel's.

  The reference computes, on the host, h = x · w by one contraction, the same edge sum of h and the edge arrays, and
  the maximum of each entry with a zero array. Its dimension records say what the kernel program's say (the same
  contracted, gathered and scattered axes over the same extents), widening the gathered rows from the narrow float
  format is the identity at the ideal values, and a zero array read at an entry is the value of the zero word. So
  the reference's composed term is relu (edgeSum (dense x w) vals src dst): no law of arithmetic is used, and
  nothing is asked of the inputs.
-/
import proofs.«100216_j17437567222234_2_alg».proof.Proof.Gen.ReferenceIdeal.Run
import proofs.«100216_j17437567222234_2_alg».proof.Proof.HostChain
import Idealize.ShloMosaic.Lib.ValueIdx

noncomputable section

namespace Cert.ReferenceIdeal.RefValue

open Idealize.ShloMosaic Idealize.ShloMosaic.ValueIdx
open Cert.ReferenceIdeal Cert.ReferenceIdeal.Facts₀

/-- Widening from the narrow format is the identity at the ideal values. -/
theorem extf_id {s : Shape} (a : FVec Ideal s .bf16) (h : FTy.bits .bf16 < FTy.bits .f32) :
    (extf (F := Ideal) .f32 a h : FVec Ideal s .f32) = a := rfl

/-- The reference run's result term is the rectified edge sum of the dense transform. -/
theorem result_eq (x : (⟨S50000x512, .f32⟩ : BufTy).Contents (Elt Ideal)) (w : (⟨S512x256, .f32⟩ : BufTy).Contents (Elt Ideal))
    (vals : (⟨S800000, .f32⟩ : BufTy).Contents (Elt Ideal)) (src dst : (⟨S800000, .i32⟩ : BufTy).Contents (Elt Ideal)) :
    maximumf (F := Ideal) (Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 dst)
        (mulf (F := Ideal)
          (Host.gather gather_S50000x256_S800000x1_S800000x256_1_0_n_n_0_1_1256
            (Host.dotGeneral (F := Ideal) (φ₁ := .f32) (φ₂ := .f32) dot_S50000x512_S512x256_S50000x256_1_0_0_1_n_n none x w)
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src)))
          (broadcastInDim S800000x256 ![0, 1] bcast_S800000x1_S800000x256_0_1
            (broadcastInDim S800000x1 ![0] bcast_S800000_S800000x1_0 vals))))
      (broadcastInDim S50000x256 ![] bcast_S_S50000x256 (constant (F := Ideal) S_ .f32 0x00000000#32))
    = Cert.KernelIdeal.HostChain.relu
        (Cert.KernelIdeal.HostChain.edgeSum (Cert.KernelIdeal.HostChain.dense x w) vals src dst) := by
  funext i
  rw [maximumf_apply, Cert.KernelIdeal.HostChain.relu_apply]
  have hz : broadcastInDim S50000x256 ![] bcast_S_S50000x256 (constant (F := Ideal) S_ .f32 0x00000000#32) i
      = Scalar.ofBits (F := Ideal) .f32 0x00000000#32 := rfl
  rw [hz]
  refine congrArg (fun z => max z (Scalar.ofBits (F := Ideal) .f32 0x00000000#32)) ?_
  refine congrFun ?_ i
  unfold Cert.KernelIdeal.HostChain.edgeSum Cert.KernelIdeal.HostChain.dense
  rw [extf_id]
  rfl

end Cert.ReferenceIdeal.RefValue

end
-- ==== Proof.lean ====
/-
  A graph-convolution layer: relu of the edge-weighted neighbour sum of h = x · w.

  Both programs compute, for 50000 nodes and 800000 weighted edges,
      out = relu (edgeSum (x · w) vals src dst),
  where edgeSum gathers the rows of h the (wrapped) source indices name, scales each by its edge's value, and adds it
  into the destination's row of a zero array. The reference does all of it on the host. The kernel program computes
  h = x · w in a tiled region (ten blocks of 5000 rows, the operands and the product passed through a narrow float
  format), runs the same host operations on it, and applies relu in a second tiled region (ten blocks of 5000 rows).
  At the ideal values a change of float format is the identity, a product into a zero accumulator is the plain
  contraction sum, a row of a product depends on the same row of the left operand only, and both tilings cover their
  arrays exactly; so the kernel program's result is the same function of the arguments. The edge sum is applied to
  equal arrays on both sides and is never opened. No law of arithmetic beyond that is needed, so the precondition on
  the inputs is not used.

  The three frame claims: the two kernel programs' by their frame modules, the reference's by its run with the
  result dropped. The idealization rewrote no operation, so there is nothing to preserve.
-/
import proofs.«100216_j17437567222234_2_alg».proof.Defs
import proofs.«100216_j17437567222234_2_alg».proof.Proof.Gen.Kernel
import proofs.«100216_j17437567222234_2_alg».proof.Proof.Gen.Kernel.Skeleton
import proofs.«100216_j17437567222234_2_alg».proof.Proof.Gen.Kernel.Launch
import proofs.«100216_j17437567222234_2_alg».proof.Proof.Gen.Kernel.Points
import proofs.«100216_j17437567222234_2_alg».proof.Proof.Gen.Kernel.Frame
import proofs.«100216_j17437567222234_2_alg».proof.Proof.Gen.KernelIdeal
import proofs.«100216_j17437567222234_2_alg».proof.Proof.Gen.KernelIdeal.Skeleton
import proofs.«100216_j17437567222234_2_alg».proof.Proof.Gen.KernelIdeal.Launch
import proofs.«100216_j17437567222234_2_alg».proof.Proof.Gen.KernelIdeal.Points
import proofs.«100216_j17437567222234_2_alg».proof.Proof.Gen.KernelIdeal.Frame
import proofs.«100216_j17437567222234_2_alg».proof.Proof.Gen.ReferenceIdeal
import proofs.«100216_j17437567222234_2_alg».proof.Proof.Gen.ReferenceIdeal.Run
import proofs.«100216_j17437567222234_2_alg».proof.Proof.Gen.Pre_finite_inputs
import proofs.«100216_j17437567222234_2_alg».proof.Proof.KernelRun
import proofs.«100216_j17437567222234_2_alg».proof.Proof.KernelValue
import proofs.«100216_j17437567222234_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the rectified edge sum of the dense transform of
    the arguments: the kernel program by its run and the value at its last boundary, the reference by its run and
    the reading of its composed term. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Value.result m ρ c), (h c).2⟩)
    (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
